-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x256 : Shape := ⟨2, ![20000, 256]⟩
abbrev S3x320000 : Shape := ⟨2, ![3, 320000]⟩
abbrev S768x256 : Shape := ⟨2, ![768, 256]⟩
abbrev S_ : Shape := ⟨0, ![]⟩

class Facts : Prop where
  bcast_S_S20000x256 : S_.BroadcastsInDim S20000x256 (![] : Fin 0 → Fin S20000x256.rank)
  reducesTo_S20000x256_S_d0_1 : S20000x256.ReducesTo [0, 1] S_
  h_S_ : 0 < S_.numel
  bcast_S_S3x320000 : S_.BroadcastsInDim S3x320000 (![] : Fin 0 → Fin S3x320000.rank)
  reducesTo_S3x320000_S_d0_1 : S3x320000.ReducesTo [0, 1] S_
  bcast_S_S768x256 : S_.BroadcastsInDim S768x256 (![] : Fin 0 → Fin S768x256.rank)
  reducesTo_S768x256_S_d0_1 : S768x256.ReducesTo [0, 1] S_

variable [Facts]

def fn {F : FTy → Type} [FloatOps F] (main_arg0 : FVec F S20000x256 .f32) (main_arg1 : IVec S3x320000 32) (main_arg2 : IVec S3x320000 32) (main_arg3 : FVec F S3x320000 .f32) (main_arg4 : FVec F S768x256 .f32) : IVec S_ 1 :=
  let main_v0 : FVec F S20000x256 .f32 := Host.absf main_arg0
  let main_cst : FVec F S_ .f32 := constant S_ .f32 0x7F800000#32
  let main_v1 : FVec F S20000x256 .f32 := broadcastInDim S20000x256 ![] bcast_S_S20000x256 main_cst
  let main_v2 : IVec S20000x256 1 := cmpf .olt main_v0 main_v1
  let main_c : IVec S_ 1 := constantI S_ 1 1#1
  let main_v3 : IVec S_ 1 := (fun x v => Host.reduce IntOp.andi x v reducesTo_S20000x256_S_d0_1 h_S_) main_v2 main_c
  let main_v4 : FVec F S3x320000 .f32 := Host.absf main_arg3
  let main_cst_0 : FVec F S_ .f32 := constant S_ .f32 0x7F800000#32
  let main_v5 : FVec F S3x320000 .f32 := broadcastInDim S3x320000 ![] bcast_S_S3x320000 main_cst_0
  let main_v6 : IVec S3x320000 1 := cmpf .olt main_v4 main_v5
  let main_c_1 : IVec S_ 1 := constantI S_ 1 1#1
  let main_v7 : IVec S_ 1 := (fun x v => Host.reduce IntOp.andi x v reducesTo_S3x320000_S_d0_1 h_S_) main_v6 main_c_1
  let main_v8 : IVec S_ 1 := andi main_v3 main_v7
  let main_v9 : FVec F S768x256 .f32 := Host.absf main_arg4
  let main_cst_2 : FVec F S_ .f32 := constant S_ .f32 0x7F800000#32
  let main_v10 : FVec F S768x256 .f32 := broadcastInDim S768x256 ![] bcast_S_S768x256 main_cst_2
  let main_v11 : IVec S768x256 1 := cmpf .olt main_v9 main_v10
  let main_c_3 : IVec S_ 1 := constantI S_ 1 1#1
  let main_v12 : IVec S_ 1 := (fun x v => Host.reduce IntOp.andi x v reducesTo_S768x256_S_d0_1 h_S_) main_v11 main_c_3
  let main_v13 : IVec S_ 1 := andi main_v8 main_v12
  main_v13
-- ==== Kernel.lean ====
abbrev S20000x256 : Shape := ⟨2, ![20000, 256]⟩
abbrev S3x320000 : Shape := ⟨2, ![3, 320000]⟩
abbrev S768x256 : Shape := ⟨2, ![768, 256]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S256x256 : Shape := ⟨2, ![256, 256]⟩
abbrev S2000x256 : Shape := ⟨2, ![2000, 256]⟩

abbrev nBuf : Space → Nat
  | .hbm => 75
  | .vmem => 11
  | .smem => 0
  | _ => 0

abbrev bufTy : (tb : Table) → Fin (tcTables nBuf tb) → BufTy
  | .hbm, ⟨0, _⟩ => ⟨S20000x256, .f32⟩
  | .hbm, ⟨1, _⟩ => ⟨S3x320000, .i32⟩
  | .hbm, ⟨2, _⟩ => ⟨S3x320000, .i32⟩
  | .hbm, ⟨3, _⟩ => ⟨S3x320000, .f32⟩
  | .hbm, ⟨4, _⟩ => ⟨S768x256, .f32⟩
  | .hbm, ⟨5, _⟩ => ⟨S1x320000, .i32⟩
  | .hbm, ⟨6, _⟩ => ⟨S320000, .i32⟩
  | .hbm, ⟨7, _⟩ => ⟨S_, .i32⟩
  | .hbm, ⟨8, _⟩ => ⟨S320000, .i32⟩
  | .hbm, ⟨9, _⟩ => ⟨S320000, .i1⟩
  | .hbm, ⟨10, _⟩ => ⟨S_, .i32⟩
  | .hbm, ⟨11, _⟩ => ⟨S320000, .i32⟩
  | .hbm, ⟨12, _⟩ => ⟨S320000, .i32⟩
  | .hbm, ⟨13, _⟩ => ⟨S320000, .i32⟩
  | .hbm, ⟨14, _⟩ => ⟨S320000x1, .i32⟩
  | .hbm, ⟨15, _⟩ => ⟨S320000x256, .f32⟩
  | .hbm, ⟨16, _⟩ => ⟨S1x320000, .f32⟩
  | .hbm, ⟨17, _⟩ => ⟨S320000, .f32⟩
  | .hbm, ⟨18, _⟩ => ⟨S320000x1, .f32⟩
  | .hbm, ⟨19, _⟩ => ⟨S320000x256, .f32⟩
  | .hbm, ⟨20, _⟩ => ⟨S320000x256, .f32⟩
  | .hbm, ⟨21, _⟩ => ⟨S1x320000, .i32⟩
  | .hbm, ⟨22, _⟩ => ⟨S320000, .i32⟩
  | .hbm, ⟨23, _⟩ => ⟨S_, .f32⟩
  | .hbm, ⟨24, _⟩ => ⟨S20000x256, .f32⟩
  | .hbm, ⟨25, _⟩ => ⟨S320000x1, .i32⟩
  | .hbm, ⟨26, _⟩ => ⟨S20000x256, .f32⟩
  | .hbm, ⟨27, _⟩ => ⟨S1x320000, .i32⟩
  | .hbm, ⟨28, _⟩ => ⟨S320000, .i32⟩
  | .hbm, ⟨29, _⟩ => ⟨S_, .i32⟩
  | .hbm, ⟨30, _⟩ => ⟨S320000, .i32⟩
  | .hbm, ⟨31, _⟩ => ⟨S320000, .i1⟩
  | .hbm, ⟨32, _⟩ => ⟨S_, .i32⟩
  | .hbm, ⟨33, _⟩ => ⟨S320000, .i32⟩
  | .hbm, ⟨34, _⟩ => ⟨S320000, .i32⟩
  | .hbm, ⟨35, _⟩ => ⟨S320000, .i32⟩
  | .hbm, ⟨36, _⟩ => ⟨S320000x1, .i32⟩
  | .hbm, ⟨37, _⟩ => ⟨S320000x256, .f32⟩
  | .hbm, ⟨38, _⟩ => ⟨S1x320000, .f32⟩
  | .hbm, ⟨39, _⟩ => ⟨S320000, .f32⟩
  | .hbm, ⟨40, _⟩ => ⟨S320000x1, .f32⟩
  | .hbm, ⟨41, _⟩ => ⟨S320000x256, .f32⟩
  | .hbm, ⟨42, _⟩ => ⟨S320000x256, .f32⟩
  | .hbm, ⟨43, _⟩ => ⟨S1x320000, .i32⟩
  | .hbm, ⟨44, _⟩ => ⟨S320000, .i32⟩
  | .hbm, ⟨45, _⟩ => ⟨S_, .f32⟩
  | .hbm, ⟨46, _⟩ => ⟨S20000x256, .f32⟩
  | .hbm, ⟨47, _⟩ => ⟨S320000x1, .i32⟩
  | .hbm, ⟨48, _⟩ => ⟨S20000x256, .f32⟩
  | .hbm, ⟨49, _⟩ => ⟨S1x320000, .i32⟩
  | .hbm, ⟨50, _⟩ => ⟨S320000, .i32⟩
  | .hbm, ⟨51, _⟩ => ⟨S_, .i32⟩
  | .hbm, ⟨52, _⟩ => ⟨S320000, .i32⟩
  | .hbm, ⟨53, _⟩ => ⟨S320000, .i1⟩
  | .hbm, ⟨54, _⟩ => ⟨S_, .i32⟩
  | .hbm, ⟨55, _⟩ => ⟨S320000, .i32⟩
  | .hbm, ⟨56, _⟩ => ⟨S320000, .i32⟩
  | .hbm, ⟨57, _⟩ => ⟨S320000, .i32⟩
  | .hbm, ⟨58, _⟩ => ⟨S320000x1, .i32⟩
  | .hbm, ⟨59, _⟩ => ⟨S320000x256, .f32⟩
  | .hbm, ⟨60, _⟩ => ⟨S1x320000, .f32⟩
  | .hbm, ⟨61, _⟩ => ⟨S320000, .f32⟩
  | .hbm, ⟨62, _⟩ => ⟨S320000x1, .f32⟩
  | .hbm, ⟨63, _⟩ => ⟨S320000x256, .f32⟩
  | .hbm, ⟨64, _⟩ => ⟨S320000x256, .f32⟩
  | .hbm, ⟨65, _⟩ => ⟨S1x320000, .i32⟩
  | .hbm, ⟨66, _⟩ => ⟨S320000, .i32⟩
  | .hbm, ⟨67, _⟩ => ⟨S_, .f32⟩
  | .hbm, ⟨68, _⟩ => ⟨S20000x256, .f32⟩
  | .hbm, ⟨69, _⟩ => ⟨S320000x1, .i32⟩
  | .hbm, ⟨70, _⟩ => ⟨S20000x256, .f32⟩
  | .hbm, ⟨71, _⟩ => ⟨S256x256, .f32⟩
  | .hbm, ⟨72, _⟩ => ⟨S256x256, .f32⟩
  | .hbm, ⟨73, _⟩ => ⟨S256x256, .f32⟩
  | .hbm, ⟨74, _⟩ => ⟨S20000x256, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S2000x256, .f32⟩
  | .local _ .vmem, ⟨10, _⟩ => ⟨S2000x256, .f32⟩
  | _, _ => ⟨S20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_1 : Ref sig .tc := ⟨.hbm, 29, rfl⟩
abbrev main_v21 : Ref sig .tc := ⟨.hbm, 30, rfl⟩
abbrev main_v22 : Ref sig .tc := ⟨.hbm, 31, rfl⟩
abbrev main_c_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_c_4 : Ref sig .tc := ⟨.hbm, 51, rfl⟩
abbrev main_v40 : Ref sig .tc := ⟨.hbm, 52, rfl⟩
abbrev main_v41 : Ref sig .tc := ⟨.hbm, 53, rfl⟩
abbrev main_c_5 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_6 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S3x320000_S1x320000_0_0 : S3x320000.Slices ![0, 0] S1x320000
  shapeCasts_S1x320000_S320000 : S1x320000.ShapeCasts S320000
  bcast_S_S320000 : S_.BroadcastsInDim S320000 (![] : Fin 0 → Fin S320000.rank)
  bcast_S320000_S320000x1_0 : S320000.BroadcastsInDim S320000x1 (![0] : Fin 1 → Fin S320000x1.rank)
  bcast_S320000x1_S320000x256_0_1 : S320000x1.BroadcastsInDim S320000x256 (![0, 1] : Fin 2 → Fin S320000x256.rank)
  bcast_S_S20000x256 : S_.BroadcastsInDim S20000x256 (![] : Fin 0 → Fin S20000x256.rank)
  slices_S3x320000_S1x320000_1_0 : S3x320000.Slices ![1, 0] S1x320000
  slices_S3x320000_S1x320000_2_0 : S3x320000.Slices ![2, 0] S1x320000
  slices_S768x256_S256x256_0_0 : S768x256.Slices ![0, 0] S256x256
  slices_S768x256_S256x256_256_0 : S768x256.Slices ![256, 0] S256x256
  slices_S768x256_S256x256_512_0 : S768x256.Slices ![512, 0] S256x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S20000x256.size a
  hwx0_0 : ∀ i : grid0.Coords, EltTy.bits .f32 = 32 ∨ (Rect.block (s := S20000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S20000x256.size a
  hwx0_1 : ∀ i : grid0.Coords, EltTy.bits .f32 = 32 ∨ (Rect.block (s := S20000x256) S2000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S20000x256.size a
  hwx0_2 : ∀ i : grid0.Coords, EltTy.bits .f32 = 32 ∨ (Rect.block (s := S20000x256) S2000x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S20000x256.size a
  hwx0_6 : ∀ i : grid0.Coords, EltTy.bits .f32 = 32 ∨ (Rect.block (s := S20000x256) S2000x256.size (cc0_transform_6 i) (hinb0_6 i)).WholeWords (EltTy.packing .f32)

variable [Facts₀]

def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v18) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v37) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v56) S2000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v57) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v58) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v59) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v60) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S20000x256 : Shape := ⟨2, ![20000, 256]⟩
abbrev S3x320000 : Shape := ⟨2, ![3, 320000]⟩
abbrev S768x256 : Shape := ⟨2, ![768, 256]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S20000x768 : Shape := ⟨2, ![20000, 768]⟩

abbrev nBuf : Space → Nat
  | .hbm => 73
  | .vmem => 0
  | .smem => 0
  | _ => 0

abbrev bufTy : (tb : Table) → Fin (tcTables nBuf tb) → BufTy
  | .hbm, ⟨0, _⟩ => ⟨S20000x256, .f32⟩
  | .hbm, ⟨1, _⟩ => ⟨S3x320000, .i32⟩
  | .hbm, ⟨2, _⟩ => ⟨S3x320000, .i32⟩
  | .hbm, ⟨3, _⟩ => ⟨S3x320000, .f32⟩
  | .hbm, ⟨4, _⟩ => ⟨S768x256, .f32⟩
  | .hbm, ⟨5, _⟩ => ⟨S1x320000, .i32⟩
  | .hbm, ⟨6, _⟩ => ⟨S320000, .i32⟩
  | .hbm, ⟨7, _⟩ => ⟨S_, .i32⟩
  | .hbm, ⟨8, _⟩ => ⟨S320000, .i32⟩
  | .hbm, ⟨9, _⟩ => ⟨S320000, .i1⟩
  | .hbm, ⟨10, _⟩ => ⟨S_, .i32⟩
  | .hbm, ⟨11, _⟩ => ⟨S320000, .i32⟩
  | .hbm, ⟨12, _⟩ => ⟨S320000, .i32⟩
  | .hbm, ⟨13, _⟩ => ⟨S320000, .i32⟩
  | .hbm, ⟨14, _⟩ => ⟨S320000x1, .i32⟩
  | .hbm, ⟨15, _⟩ => ⟨S320000x256, .f32⟩
  | .hbm, ⟨16, _⟩ => ⟨S1x320000, .f32⟩
  | .hbm, ⟨17, _⟩ => ⟨S320000, .f32⟩
  | .hbm, ⟨18, _⟩ => ⟨S320000x1, .f32⟩
  | .hbm, ⟨19, _⟩ => ⟨S320000x256, .f32⟩
  | .hbm, ⟨20, _⟩ => ⟨S320000x256, .f32⟩
  | .hbm, ⟨21, _⟩ => ⟨S1x320000, .i32⟩
  | .hbm, ⟨22, _⟩ => ⟨S320000, .i32⟩
  | .hbm, ⟨23, _⟩ => ⟨S_, .f32⟩
  | .hbm, ⟨24, _⟩ => ⟨S20000x256, .f32⟩
  | .hbm, ⟨25, _⟩ => ⟨S320000x1, .i32⟩
  | .hbm, ⟨26, _⟩ => ⟨S20000x256, .f32⟩
  | .hbm, ⟨27, _⟩ => ⟨S1x320000, .i32⟩
  | .hbm, ⟨28, _⟩ => ⟨S320000, .i32⟩
  | .hbm, ⟨29, _⟩ => ⟨S_, .i32⟩
  | .hbm, ⟨30, _⟩ => ⟨S320000, .i32⟩
  | .hbm, ⟨31, _⟩ => ⟨S320000, .i1⟩
  | .hbm, ⟨32, _⟩ => ⟨S_, .i32⟩
  | .hbm, ⟨33, _⟩ => ⟨S320000, .i32⟩
  | .hbm, ⟨34, _⟩ => ⟨S320000, .i32⟩
  | .hbm, ⟨35, _⟩ => ⟨S320000, .i32⟩
  | .hbm, ⟨36, _⟩ => ⟨S320000x1, .i32⟩
  | .hbm, ⟨37, _⟩ => ⟨S320000x256, .f32⟩
  | .hbm, ⟨38, _⟩ => ⟨S1x320000, .f32⟩
  | .hbm, ⟨39, _⟩ => ⟨S320000, .f32⟩
  | .hbm, ⟨40, _⟩ => ⟨S320000x1, .f32⟩
  | .hbm, ⟨41, _⟩ => ⟨S320000x256, .f32⟩
  | .hbm, ⟨42, _⟩ => ⟨S320000x256, .f32⟩
  | .hbm, ⟨43, _⟩ => ⟨S1x320000, .i32⟩
  | .hbm, ⟨44, _⟩ => ⟨S320000, .i32⟩
  | .hbm, ⟨45, _⟩ => ⟨S_, .f32⟩
  | .hbm, ⟨46, _⟩ => ⟨S20000x256, .f32⟩
  | .hbm, ⟨47, _⟩ => ⟨S320000x1, .i32⟩
  | .hbm, ⟨48, _⟩ => ⟨S20000x256, .f32⟩
  | .hbm, ⟨49, _⟩ => ⟨S1x320000, .i32⟩
  | .hbm, ⟨50, _⟩ => ⟨S320000, .i32⟩
  | .hbm, ⟨51, _⟩ => ⟨S_, .i32⟩
  | .hbm, ⟨52, _⟩ => ⟨S320000, .i32⟩
  | .hbm, ⟨53, _⟩ => ⟨S320000, .i1⟩
  | .hbm, ⟨54, _⟩ => ⟨S_, .i32⟩
  | .hbm, ⟨55, _⟩ => ⟨S320000, .i32⟩
  | .hbm, ⟨56, _⟩ => ⟨S320000, .i32⟩
  | .hbm, ⟨57, _⟩ => ⟨S320000, .i32⟩
  | .hbm, ⟨58, _⟩ => ⟨S320000x1, .i32⟩
  | .hbm, ⟨59, _⟩ => ⟨S320000x256, .f32⟩
  | .hbm, ⟨60, _⟩ => ⟨S1x320000, .f32⟩
  | .hbm, ⟨61, _⟩ => ⟨S320000, .f32⟩
  | .hbm, ⟨62, _⟩ => ⟨S320000x1, .f32⟩
  | .hbm, ⟨63, _⟩ => ⟨S320000x256, .f32⟩
  | .hbm, ⟨64, _⟩ => ⟨S320000x256, .f32⟩
  | .hbm, ⟨65, _⟩ => ⟨S1x320000, .i32⟩
  | .hbm, ⟨66, _⟩ => ⟨S320000, .i32⟩
  | .hbm, ⟨67, _⟩ => ⟨S_, .f32⟩
  | .hbm, ⟨68, _⟩ => ⟨S20000x256, .f32⟩
  | .hbm, ⟨69, _⟩ => ⟨S320000x1, .i32⟩
  | .hbm, ⟨70, _⟩ => ⟨S20000x256, .f32⟩
  | .hbm, ⟨71, _⟩ => ⟨S20000x768, .f32⟩
  | .hbm, ⟨72, _⟩ => ⟨S20000x256, .f32⟩
  | _, _ => ⟨S20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_1 : Ref sig .tc := ⟨.hbm, 29, rfl⟩
abbrev main_v21 : Ref sig .tc := ⟨.hbm, 30, rfl⟩
abbrev main_v22 : Ref sig .tc := ⟨.hbm, 31, rfl⟩
abbrev main_c_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_c_4 : Ref sig .tc := ⟨.hbm, 51, rfl⟩
abbrev main_v40 : Ref sig .tc := ⟨.hbm, 52, rfl⟩
abbrev main_v41 : Ref sig .tc := ⟨.hbm, 53, rfl⟩
abbrev main_c_5 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_6 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩

abbrev nD : Nat := 1
abbrev τ : Topo := Topo.v7x

variable {F : FTy → Type} [FloatOps F]

class Facts₀ : Prop where
  slices_S3x320000_S1x320000_0_0 : S3x320000.Slices ![0, 0] S1x320000
  shapeCasts_S1x320000_S320000 : S1x320000.ShapeCasts S320000
  bcast_S_S320000 : S_.BroadcastsInDim S320000 (![] : Fin 0 → Fin S320000.rank)
  bcast_S320000_S320000x1_0 : S320000.BroadcastsInDim S320000x1 (![0] : Fin 1 → Fin S320000x1.rank)
  bcast_S320000x1_S320000x256_0_1 : S320000x1.BroadcastsInDim S320000x256 (![0, 1] : Fin 2 → Fin S320000x256.rank)
  bcast_S_S20000x256 : S_.BroadcastsInDim S20000x256 (![] : Fin 0 → Fin S20000x256.rank)
  slices_S3x320000_S1x320000_1_0 : S3x320000.Slices ![1, 0] S1x320000
  slices_S3x320000_S1x320000_2_0 : S3x320000.Slices ![2, 0] S1x320000
  concatenates_S20000x256_S20000x256_S20000x256_S20000x768_d1 : Shape.Concatenates [S20000x256, S20000x256, S20000x256] S20000x768 1
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  dot_S20000x768_S768x256_S20000x256_1_0_0_1_n_n_wf : DotDims.WF S20000x768 S768x256 S20000x256 [1] [0] [0] [1] [] []

variable [Facts₀]

def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S20000x768_S768x256_S20000x256_1_0_0_1_n_n : DotDims S20000x768 S768x256 S20000x256 where
  lhsContracting := [1]
  rhsContracting := [0]
  lhsNonContracting := [0]
  rhsNonContracting := [1]
  lhsBatch := []
  rhsBatch := []
  wf := dot_S20000x768_S768x256_S20000x256_1_0_0_1_n_n_wf

class Facts : Prop extends Facts₀ where

variable [Facts]
-- ==== Proof.Spec.lean ====
/-
  The value both programs compute, stated once over plain arrays of extended reals.

  Three arrays `s0 s1 s2` of 20000 rows by 256 columns (the three supports) and one weight array `w` of 768 rows by
  256 columns. Entry (r, q) of the result is
      (∑ k < 256, s0[r, k] · w[k, q]  +  ∑ k < 256, s1[r, k] · w[256 + k, q])  +  ∑ k < 256, s2[r, k] · w[512 + k, q],
  that is, each support multiplied into its own band of 256 rows of `w`, the three products added in that order.
-/
import Idealize.ShloMosaic.PureOps.Ideal
import Idealize.ShloMosaic.Lib.ValueIdx

noncomputable section

namespace Cert.SupportSum

open Idealize.ShloMosaic Idealize.ShloMosaic.ValueIdx
open scoped BigOperators

/-- 20000 rows of 256 columns: a support, and the result. -/
abbrev Rows : Shape := ⟨2, ![20000, 256]⟩
/-- 20000 rows of 768 columns: the three supports side by side. -/
abbrev Wide : Shape := ⟨2, ![20000, 768]⟩
/-- 768 rows of 256 columns: the weights, three bands of 256 rows. -/
abbrev Weights : Shape := ⟨2, ![768, 256]⟩

/-- Row `k` of the first band of the weights (rows 0 … 255), as a row index of the whole array. -/
abbrev band0 (k : Fin 256) : Fin 768 := ⟨k.val, by have := k.isLt; omega⟩
/-- Row `k` of the second band (rows 256 … 511). -/
abbrev band1 (k : Fin 256) : Fin 768 := ⟨256 + k.val, by have := k.isLt; omega⟩
/-- Row `k` of the third band (rows 512 … 767). -/
abbrev band2 (k : Fin 256) : Fin 768 := ⟨512 + k.val, by have := k.isLt; omega⟩

/-- Entry (r, q) of the result: the three band products added as (first + second) + third. -/
def fusedAt (s0 s1 s2 : Rows.Idx → EReal) (w : Weights.Idx → EReal) (r : Fin 20000) (q : Fin 256) : EReal :=
  (∑ k : Fin 256, s0 (ix2 r k) * w (ix2 (band0 k) q)
    + ∑ k : Fin 256, s1 (ix2 r k) * w (ix2 (band1 k) q))
  + ∑ k : Fin 256, s2 (ix2 r k) * w (ix2 (band2 k) q)

/-- The result array. -/
def fused (s0 s1 s2 : Rows.Idx → EReal) (w : Weights.Idx → EReal) : Rows.Idx → EReal :=
  fun i => fusedAt s0 s1 s2 w (i 0) (i 1)

theorem fused_apply (s0 s1 s2 : Rows.Idx → EReal) (w : Weights.Idx → EReal) (r : Fin 20000) (q : Fin 256) :
    fused s0 s1 s2 w (ix2 r q) = fusedAt s0 s1 s2 w r q := rfl

end Cert.SupportSum

end
-- ==== Proof.HostArrays.lean ====
/-
  The six arrays the kernel stages, as the region finds them, in terms of the program's arguments.

  Before the region the program computes, on the host, the three supports (a gather of rows of x, scaled by the edge
  weights, summed into rows by destination) and cuts the weight array into its three bands of 256 rows. The supports
  are the same chain of host operations the reference applies, so each is named by the reference's own stage and never
  opened; a band is the weight array read 0, 256 or 512 rows further down.
-/
import proofs.«114773_j30073361007326_2_alg».proof.Proof.Gen.KernelIdeal.Frame
import proofs.«114773_j30073361007326_2_alg».proof.Proof.Gen.ReferenceIdeal.Read
import proofs.«114773_j30073361007326_2_alg».proof.Proof.Spec
import Idealize.ShloMosaic.Lib.StableHlo.Run
import Idealize.ShloMosaic.Lib.Pipeline.Value
import Idealize.ShloMosaic.Lib.ValueIdx

noncomputable section

namespace Cert.KernelIdeal.Entry

open Cert.KernelIdeal Cert.KernelIdeal.Gen
open Idealize.ShloMosaic Idealize.ShloMosaic.TcCoe Idealize.SL.Sem Idealize.ShloMosaic.StableHlo Idealize.ShloMosaic.ValueIdx
open Cert.SupportSum (band0 band1 band2)

variable (m : (ℓ : Loc nD τ sig) → Buf (Elt Ideal) ℓ)

set_option maxRecDepth 8192 in
set_option maxHeartbeats 4000000 in
/-- The first staged array is the first support. -/
theorem support0_entry (c : Dev nD) :
    (V m c main_v18 : S20000x256.Idx → EReal)
      = Cert.ReferenceIdeal.Read.val_main_v18 (F := Ideal) (m ((c : Thread nD τ).loc main_arg0)) (m ((c : Thread nD τ).loc main_arg1))
          (m ((c : Thread nD τ).loc main_arg2)) (m ((c : Thread nD τ).loc main_arg3)) := by
  dsimp only [V, hostOps0]
  after_results_simp
  rfl

set_option maxRecDepth 8192 in
set_option maxHeartbeats 4000000 in
/-- The second staged array is the second support. -/
theorem support1_entry (c : Dev nD) :
    (V m c main_v37 : S20000x256.Idx → EReal)
      = Cert.ReferenceIdeal.Read.val_main_v37 (F := Ideal) (m ((c : Thread nD τ).loc main_arg0)) (m ((c : Thread nD τ).loc main_arg1))
          (m ((c : Thread nD τ).loc main_arg2)) (m ((c : Thread nD τ).loc main_arg3)) := by
  dsimp only [V, hostOps0]
  after_results_simp
  rfl

set_option maxRecDepth 8192 in
set_option maxHeartbeats 4000000 in
/-- The third staged array is the third support. -/
theorem support2_entry (c : Dev nD) :
    (V m c main_v56 : S20000x256.Idx → EReal)
      = Cert.ReferenceIdeal.Read.val_main_v56 (F := Ideal) (m ((c : Thread nD τ).loc main_arg0)) (m ((c : Thread nD τ).loc main_arg1))
          (m ((c : Thread nD τ).loc main_arg2)) (m ((c : Thread nD τ).loc main_arg3)) := by
  dsimp only [V, hostOps0]
  after_results_simp
  rfl

set_option maxRecDepth 8192 in
set_option maxHeartbeats 4000000 in
/-- The fourth staged array is the first band of the weights: rows 0 … 255. -/
theorem band0_entry (c : Dev nD) :
    (V m c main_v57 : S256x256.Idx → EReal)
      = extractStridedSlice S256x256 ![0, 0] (m ((c : Thread nD τ).loc main_arg4)) slices_S768x256_S256x256_0_0 := by
  dsimp only [V, hostOps0]
  after_results_simp

set_option maxRecDepth 8192 in
set_option maxHeartbeats 4000000 in
/-- The fifth staged array is the second band of the weights: rows 256 … 511. -/
theorem band1_entry (c : Dev nD) :
    (V m c main_v58 : S256x256.Idx → EReal)
      = extractStridedSlice S256x256 ![256, 0] (m ((c : Thread nD τ).loc main_arg4)) slices_S768x256_S256x256_256_0 := by
  dsimp only [V, hostOps0]
  after_results_simp

set_option maxRecDepth 8192 in
set_option maxHeartbeats 4000000 in
/-- The sixth staged array is the third band of the weights: rows 512 … 767. -/
theorem band2_entry (c : Dev nD) :
    (V m c main_v59 : S256x256.Idx → EReal)
      = extractStridedSlice S256x256 ![512, 0] (m ((c : Thread nD τ).loc main_arg4)) slices_S768x256_S256x256_512_0 := by
  dsimp only [V, hostOps0]
  after_results_simp

/-- Entry (k, q) of that band is entry (k, q) of the weights. -/
theorem band0_at (c : Dev nD) (k q : Fin 256) :
    (V m c main_v57 : S256x256.Idx → EReal) (ix2 k q)
      = (m ((c : Thread nD τ).loc main_arg4) : S768x256.Idx → EReal) (ix2 (band0 k) q) :=
  (congrFun (band0_entry m c) (ix2 k q)).trans
    (extractStridedSlice_apply ![0, 0] _ slices_S768x256_S256x256_0_0 (ix2 k q) (ix2 (band0 k) q) (fun a => match a with
      | ⟨0, _⟩ => (Nat.zero_add k.val).symm
      | ⟨1, _⟩ => (Nat.zero_add q.val).symm))

/-- Entry (k, q) of that band is entry (256 + k, q) of the weights. -/
theorem band1_at (c : Dev nD) (k q : Fin 256) :
    (V m c main_v58 : S256x256.Idx → EReal) (ix2 k q)
      = (m ((c : Thread nD τ).loc main_arg4) : S768x256.Idx → EReal) (ix2 (band1 k) q) :=
  (congrFun (band1_entry m c) (ix2 k q)).trans
    (extractStridedSlice_apply ![256, 0] _ slices_S768x256_S256x256_256_0 (ix2 k q) (ix2 (band1 k) q) (fun a => match a with
      | ⟨0, _⟩ => rfl
      | ⟨1, _⟩ => (Nat.zero_add q.val).symm))

/-- Entry (k, q) of that band is entry (512 + k, q) of the weights. -/
theorem band2_at (c : Dev nD) (k q : Fin 256) :
    (V m c main_v59 : S256x256.Idx → EReal) (ix2 k q)
      = (m ((c : Thread nD τ).loc main_arg4) : S768x256.Idx → EReal) (ix2 (band2 k) q) :=
  (congrFun (band2_entry m c) (ix2 k q)).trans
    (extractStridedSlice_apply ![512, 0] _ slices_S768x256_S256x256_512_0 (ix2 k q) (ix2 (band2 k) q) (fun a => match a with
      | ⟨0, _⟩ => rfl
      | ⟨1, _⟩ => (Nat.zero_add q.val).symm))

end Cert.KernelIdeal.Entry

end
-- ==== Proof.BodyAtIndex.lean ====
/-
  What the kernel's body stores, read at one entry of its 2000 × 256 output block.

  The body loads three 2000 × 256 blocks a0 a1 a2 (one per support) and three 256 × 256 blocks b0 b1 b2 (one per band
  of the weights), narrows each to bf16 — the identity on extended reals —, forms the three matrix products into a
  zero accumulator, and stores (a0·b0 + a1·b1) + a2·b2. At entry (p, q) that is
      (∑ k < 256, a0[p, k] · b0[k, q]  +  ∑ k < 256, a1[p, k] · b1[k, q])  +  ∑ k < 256, a2[p, k] · b2[k, q].
-/
import proofs.«114773_j30073361007326_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen
open Idealize.ShloMosaic Idealize.ShloMosaic.ValueIdx
open scoped BigOperators

/-- The product's left index at output (p, q): its row is the output's row. -/
theorem lhs_row (j : S2000x256.Idx) (c : dot_S2000x256_S256x256_S2000x256_1_0_0_1_n_n.contr.Idx) : (dot_S2000x256_S256x256_S2000x256_1_0_0_1_n_n.lhsIdx j c 0).val = (j 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
/-- Its column is the contraction position. -/
theorem lhs_col (j : S2000x256.Idx) (c : dot_S2000x256_S256x256_S2000x256_1_0_0_1_n_n.contr.Idx) : (dot_S2000x256_S256x256_S2000x256_1_0_0_1_n_n.lhsIdx j c 1).val = (c ⟨0, by decide⟩).val :=
  dot_S2000x256_S256x256_S2000x256_1_0_0_1_n_n.lhsIdx_val_of_single rfl j c
/-- The right index's row is the contraction position. -/
theorem rhs_row (j : S2000x256.Idx) (c : dot_S2000x256_S256x256_S2000x256_1_0_0_1_n_n.contr.Idx) : (dot_S2000x256_S256x256_S2000x256_1_0_0_1_n_n.rhsIdx j c 0).val = (c ⟨0, by decide⟩).val :=
  dot_S2000x256_S256x256_S2000x256_1_0_0_1_n_n.rhsIdx_val_of_single rfl j c
/-- Its column is the output's column. -/
theorem rhs_col (j : S2000x256.Idx) (c : dot_S2000x256_S256x256_S2000x256_1_0_0_1_n_n.contr.Idx) : (dot_S2000x256_S256x256_S2000x256_1_0_0_1_n_n.rhsIdx j c 1).val = (j 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- One product into a zero accumulator, at entry (p, q): the row of `a` against the column of `b`. -/
theorem product_apply (a : FVec Ideal S2000x256 .bf16) (b : FVec Ideal S256x256 .bf16) (p : Fin 2000) (q : Fin 256) :
    matmul dot_S2000x256_S256x256_S2000x256_1_0_0_1_n_n none a b (constant S2000x256 .f32 0x00000000#32) (ix2 p q)
      = ∑ k : Fin 256, a (ix2 p k) * b (ix2 k q) := by
  show FloatOps.matmul dot_S2000x256_S256x256_S2000x256_1_0_0_1_n_n none a b (constant S2000x256 .f32 0x00000000#32) (ix2 p q) = _
  rw [Ideal.matmul_constant_zero_apply, ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q) ((contrEquiv1 dot_S2000x256_S256x256_S2000x256_1_0_0_1_n_n 256 rfl rfl).symm k) = ix2 p k := funext fun d => Fin.ext (by
    match d with
    | ⟨0, _⟩ => exact lhs_row _ _
    | ⟨1, _⟩ => exact (lhs_col _ _).trans hk)
  have er : dot_S2000x256_S256x256_S2000x256_1_0_0_1_n_n.rhsIdx (ix2 p q) ((contrEquiv1 dot_S2000x256_S256x256_S2000x256_1_0_0_1_n_n 256 rfl rfl).symm k) = ix2 k q := funext fun d => Fin.ext (by
    match d with
    | ⟨0, _⟩ => exact (rhs_row _ _).trans hk
    | ⟨1, _⟩ => exact rhs_col _ _)
  rw [el, er]

/-- The stored value at entry (p, q): the three row-by-column sums, added as (first + second) + third. -/
theorem stored_apply (a0 a1 a2 : Vec Ideal S2000x256 .f32) (b0 b1 b2 : Vec Ideal S256x256 .f32) (p : Fin 2000) (q : Fin 256) :
    k0_pay1 a0 a1 a2 b0 b1 b2 (ix2 p q)
      = (∑ k : Fin 256, a0 (ix2 p k) * b0 (ix2 k q) + ∑ k : Fin 256, a1 (ix2 p k) * b1 (ix2 k q))
        + ∑ k : Fin 256, a2 (ix2 p k) * b2 (ix2 k q) := by
  unfold k0_pay1
  rw [addf_apply, addf_apply, product_apply, product_apply, product_apply]
  simp only [shapeCast_self]
  rfl

end Cert.KernelIdeal.Body

end
-- ==== Proof.BlockIsSpec.lean ====
/-
  One block of the kernel's output is the matching block of the specification.

  Take grid point T (T < 10). Suppose the three 2000 × 256 blocks a0 a1 a2 hold rows 2000·T … 2000·T + 1999 of the
  supports s0 s1 s2, and the three 256 × 256 blocks b0 b1 b2 hold the three bands of the weights. Then what the body
  stores at block entry y is the specification's entry at the array index z that lies 2000·T rows further down in
  the same column. Everything here is about plain functions on literal index types; no program is mentioned.
-/
import proofs.«114773_j30073361007326_2_alg».proof.Proof.BodyAtIndex
import proofs.«114773_j30073361007326_2_alg».proof.Proof.Spec

noncomputable section

namespace Cert.KernelIdeal.Body

open Cert.KernelIdeal Cert.KernelIdeal.Gen
open Idealize.ShloMosaic Idealize.ShloMosaic.ValueIdx Cert.SupportSum
open scoped BigOperators

/-- The block entry `y` sits at array index `z`: 2000·T rows down, same column. -/
def SitsAt (T : Nat) (y : S2000x256.Idx) (z : S20000x256.Idx) : Prop :=
  (z 0).val = 2000 * T + (y 0).val ∧ (z 1).val = (y 1).val

theorem stored_eq_fused (T : Nat)
    (s0 s1 s2 : S20000x256.Idx → EReal) (w : S768x256.Idx → EReal)
    (a0 a1 a2 : Vec Ideal S2000x256 .f32) (b0 b1 b2 : Vec Ideal S256x256 .f32)
    (ha0 : ∀ (y : S2000x256.Idx) (z : S20000x256.Idx), SitsAt T y z → a0 y = s0 z)
    (ha1 : ∀ (y : S2000x256.Idx) (z : S20000x256.Idx), SitsAt T y z → a1 y = s1 z)
    (ha2 : ∀ (y : S2000x256.Idx) (z : S20000x256.Idx), SitsAt T y z → a2 y = s2 z)
    (hb0 : ∀ (k q : Fin 256), b0 (ix2 k q) = w (ix2 (band0 k) q))
    (hb1 : ∀ (k q : Fin 256), b1 (ix2 k q) = w (ix2 (band1 k) q))
    (hb2 : ∀ (k q : Fin 256), b2 (ix2 k q) = w (ix2 (band2 k) q))
    (y : S2000x256.Idx) (z : S20000x256.Idx) (hyz : SitsAt T y z) :
    k0_pay1 a0 a1 a2 b0 b1 b2 y = fused s0 s1 s2 w z := by
  obtain ⟨p, q, rfl⟩ : ∃ (p : Fin 2000) (q : Fin 256), y = ix2 p q := ⟨y 0, y 1, eq_ix2 y⟩
  obtain ⟨r, q', rfl⟩ : ∃ (r : Fin 20000) (q' : Fin 256), z = ix2 r q' := ⟨z 0, z 1, eq_ix2 z⟩
  obtain ⟨hr, hq⟩ := hyz
  have hq' : q' = q := Fin.ext hq
  subst hq'
  rw [stored_apply, fused_apply]
  unfold fusedAt
  have row : ∀ k : Fin 256, SitsAt T (ix2 p k) (ix2 r k) := fun k => ⟨hr, rfl⟩
  congr 1
  · congr 1
    · exact Finset.sum_congr rfl fun k _ => by rw [ha0 _ _ (row k), hb0]
    · exact Finset.sum_congr rfl fun k _ => by rw [ha1 _ _ (row k), hb1]
  · exact Finset.sum_congr rfl fun k _ => by rw [ha2 _ _ (row k), hb2]

end Cert.KernelIdeal.Body

end
-- ==== Proof.KernelArray.lean ====
/-
  From the ten blocks to the whole result array of the kernel.

  The grid has ten points. At point t the three support windows and the output window are at block row t (rows
  2000·t … 2000·t + 1999, all 256 columns) and each weight window is its whole 256 × 256 band. So what point t writes
  back is block t of ONE array: the specification applied to the three supports and the weight argument. The ten
  blocks tile the 20000 rows — row r lies in block r / 2000 —, hence after the run the result array is that array.
-/
import proofs.«114773_j30073361007326_2_alg».proof.Proof.Gen.KernelIdeal.Value
import proofs.«114773_j30073361007326_2_alg».proof.Proof.HostArrays
import proofs.«114773_j30073361007326_2_alg».proof.Proof.BlockIsSpec
import Idealize.ShloMosaic.Lib.Pipeline.Value

set_option maxRecDepth 16384

noncomputable section

namespace Cert.KernelIdeal.Whole

open Cert.KernelIdeal Cert.KernelIdeal.Gen Cert.KernelIdeal.Value Cert.KernelIdeal.Entry Cert.KernelIdeal.Body
open Idealize.ShloMosaic Idealize.ShloMosaic.TcCoe Idealize.SL.Sem Idealize.ShloMosaic.ValueIdx Cert.SupportSum
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The three supports, as functions of the program's arguments (the host chain shared with the reference, kept closed). -/
abbrev support0 (c : Dev nD) : S20000x256.Idx → EReal :=
  Cert.ReferenceIdeal.Read.val_main_v18 (F := Ideal) (m ((c : Thread nD τ).loc main_arg0)) (m ((c : Thread nD τ).loc main_arg1)) (m ((c : Thread nD τ).loc main_arg2)) (m ((c : Thread nD τ).loc main_arg3))
abbrev support1 (c : Dev nD) : S20000x256.Idx → EReal :=
  Cert.ReferenceIdeal.Read.val_main_v37 (F := Ideal) (m ((c : Thread nD τ).loc main_arg0)) (m ((c : Thread nD τ).loc main_arg1)) (m ((c : Thread nD τ).loc main_arg2)) (m ((c : Thread nD τ).loc main_arg3))
abbrev support2 (c : Dev nD) : S20000x256.Idx → EReal :=
  Cert.ReferenceIdeal.Read.val_main_v56 (F := Ideal) (m ((c : Thread nD τ).loc main_arg0)) (m ((c : Thread nD τ).loc main_arg1)) (m ((c : Thread nD τ).loc main_arg2)) (m ((c : Thread nD τ).loc main_arg3))

/-- The array the kernel's result ends holding: the three band products of the supports with the weights, added. -/
def result (c : Dev nD) : S20000x256.Idx → EReal :=
  fused (support0 m c) (support1 m c) (support2 m c) (m ((c : Thread nD τ).loc main_arg4))

/-- The index maps, decided over the ten grid points: a support's block and the output's block at point t are block
    row t of their arrays, and a weight window's block is always its whole array. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Block t of staged array 0 holds rows 2000·t … 2000·t + 1999 of support 0. -/
theorem support_block0 (c : Dev nD) (t : Fin cfg0.N) (y : S2000x256.Idx) (z : S20000x256.Idx) (h : SitsAt t.val y z) :
    (iblk m c 0 t : Vec Ideal S2000x256 .f32) y = support0 m c z := by
  obtain ⟨h0, h1⟩ := h
  obtain ⟨e00, e01, e10, e11, e20, e21, -⟩ := block_indices t
  unfold iblk
  rw [View.read_apply]
  show V m c main_v18 _ = _
  rw [support0_entry]
  congr 1
  funext a
  apply Fin.ext
  match a with
  | ⟨0, _⟩ => show win0_0.index t (0 : Fin 2) * 2000 + 1 * (y 0).val = (z 0).val; rw [e00, h0]; omega
  | ⟨1, _⟩ => show win0_0.index t (1 : Fin 2) * 256 + 1 * (y 1).val = (z 1).val; rw [e01, h1]; omega

/-- Block t of staged array 1 holds rows 2000·t … 2000·t + 1999 of support 1. -/
theorem support_block1 (c : Dev nD) (t : Fin cfg0.N) (y : S2000x256.Idx) (z : S20000x256.Idx) (h : SitsAt t.val y z) :
    (iblk m c 1 t : Vec Ideal S2000x256 .f32) y = support1 m c z := by
  obtain ⟨h0, h1⟩ := h
  obtain ⟨e00, e01, e10, e11, e20, e21, -⟩ := block_indices t
  unfold iblk
  rw [View.read_apply]
  show V m c main_v37 _ = _
  rw [support1_entry]
  congr 1
  funext a
  apply Fin.ext
  match a with
  | ⟨0, _⟩ => show win0_1.index t (0 : Fin 2) * 2000 + 1 * (y 0).val = (z 0).val; rw [e10, h0]; omega
  | ⟨1, _⟩ => show win0_1.index t (1 : Fin 2) * 256 + 1 * (y 1).val = (z 1).val; rw [e11, h1]; omega

/-- Block t of staged array 2 holds rows 2000·t … 2000·t + 1999 of support 2. -/
theorem support_block2 (c : Dev nD) (t : Fin cfg0.N) (y : S2000x256.Idx) (z : S20000x256.Idx) (h : SitsAt t.val y z) :
    (iblk m c 2 t : Vec Ideal S2000x256 .f32) y = support2 m c z := by
  obtain ⟨h0, h1⟩ := h
  obtain ⟨e00, e01, e10, e11, e20, e21, -⟩ := block_indices t
  unfold iblk
  rw [View.read_apply]
  show V m c main_v56 _ = _
  rw [support2_entry]
  congr 1
  funext a
  apply Fin.ext
  match a with
  | ⟨0, _⟩ => show win0_2.index t (0 : Fin 2) * 2000 + 1 * (y 0).val = (z 0).val; rw [e20, h0]; omega
  | ⟨1, _⟩ => show win0_2.index t (1 : Fin 2) * 256 + 1 * (y 1).val = (z 1).val; rw [e21, h1]; omega

/-- The one block of staged array 3 is the whole of band 0 of the weights, at every point. -/
theorem band_block0 (c : Dev nD) (t : Fin cfg0.N) (k q : Fin 256) :
    (iblk m c 3 t : Vec Ideal S256x256 .f32) (ix2 k q) = ((m ((c : Thread nD τ).loc main_arg4)) : S768x256.Idx → EReal) (ix2 (band0 k) q) := by
  obtain ⟨-, -, -, -, -, -, e30, e31, e40, e41, e50, e51, -⟩ := block_indices t
  unfold iblk
  rw [View.read_apply]
  show V m c main_v57 _ = _
  refine Eq.trans ?_ (band0_at m c k q)
  congr 1
  funext a
  apply Fin.ext
  match a with
  | ⟨0, _⟩ => show win0_3.index t (0 : Fin 2) * 256 + 1 * k.val = k.val; rw [e30]; omega
  | ⟨1, _⟩ => show win0_3.index t (1 : Fin 2) * 256 + 1 * q.val = q.val; rw [e31]; omega

/-- The one block of staged array 4 is the whole of band 1 of the weights, at every point. -/
theorem band_block1 (c : Dev nD) (t : Fin cfg0.N) (k q : Fin 256) :
    (iblk m c 4 t : Vec Ideal S256x256 .f32) (ix2 k q) = ((m ((c : Thread nD τ).loc main_arg4)) : S768x256.Idx → EReal) (ix2 (band1 k) q) := by
  obtain ⟨-, -, -, -, -, -, e30, e31, e40, e41, e50, e51, -⟩ := block_indices t
  unfold iblk
  rw [View.read_apply]
  show V m c main_v58 _ = _
  refine Eq.trans ?_ (band1_at m c k q)
  congr 1
  funext a
  apply Fin.ext
  match a with
  | ⟨0, _⟩ => show win0_4.index t (0 : Fin 2) * 256 + 1 * k.val = k.val; rw [e40]; omega
  | ⟨1, _⟩ => show win0_4.index t (1 : Fin 2) * 256 + 1 * q.val = q.val; rw [e41]; omega

/-- The one block of staged array 5 is the whole of band 2 of the weights, at every point. -/
theorem band_block2 (c : Dev nD) (t : Fin cfg0.N) (k q : Fin 256) :
    (iblk m c 5 t : Vec Ideal S256x256 .f32) (ix2 k q) = ((m ((c : Thread nD τ).loc main_arg4)) : S768x256.Idx → EReal) (ix2 (band2 k) q) := by
  obtain ⟨-, -, -, -, -, -, e30, e31, e40, e41, e50, e51, -⟩ := block_indices t
  unfold iblk
  rw [View.read_apply]
  show V m c main_v59 _ = _
  refine Eq.trans ?_ (band2_at m c k q)
  congr 1
  funext a
  apply Fin.ext
  match a with
  | ⟨0, _⟩ => show win0_5.index t (0 : Fin 2) * 256 + 1 * k.val = k.val; rw [e50]; omega
  | ⟨1, _⟩ => show win0_5.index t (1 : Fin 2) * 256 + 1 * q.val = q.val; rw [e51]; omega

/-- What point t writes back is block t of `result`. -/
theorem flushed_eq (c : Dev nD) (t : Fin cfg0.N) :
    (dats m 0 c).flushed 6 t = ((cfg0.win 6).blk t).view.read (Elt Ideal) (result m c) := by
  rw [flushed6]
  unfold out0_6
  rw [View.canon_unit_zero origin]
  simp only [View.ld_unit_zero (S := S2000x256) origin, View.ld_unit_zero (S := S256x256) origin]
  obtain ⟨-, -, -, -, -, -, -, -, -, -, -, -, e60, e61⟩ := block_indices t
  funext j
  show k0_pay1 (iblk m c 0 t) (iblk m c 1 t) (iblk m c 2 t) (iblk m c 3 t) (iblk m c 4 t) (iblk m c 5 t) j
      = result m c (((cfg0.win 6).blk t).view.emb j)
  exact stored_eq_fused t.val (support0 m c) (support1 m c) (support2 m c) (m ((c : Thread nD τ).loc main_arg4))
    (iblk m c 0 t) (iblk m c 1 t) (iblk m c 2 t) (iblk m c 3 t) (iblk m c 4 t) (iblk m c 5 t)
    (support_block0 m c t) (support_block1 m c t) (support_block2 m c t)
    (band_block0 m c t) (band_block1 m c t) (band_block2 m c t)
    j (((cfg0.win 6).blk t).view.emb j)
    ⟨by show win0_6.index t (0 : Fin 2) * 2000 + 1 * (j 0).val = 2000 * t.val + (j 0).val; rw [e60]; omega,
     by show win0_6.index t (1 : Fin 2) * 256 + 1 * (j 1).val = (j 1).val; rw [e61]; omega⟩

/-- An index of the result array is in point t's block iff each coordinate is in the block's range on its axis. -/
theorem mem_block (t : Fin cfg0.N) (i : S20000x256.Idx) :
    i ∈ ((cfg0.win 6).blk t).view.set ↔ ∀ a : Fin 2, win0_6.index t a * S2000x256.size a ≤ (i a).val ∧ (i a).val < win0_6.index t a * S2000x256.size a + S2000x256.size a := by
  show i ∈ ((View.whole main_v60).slice (win0_6.rect t)).set ↔ _
  rw [View.set_slice_whole, Rect.mem_set_unit]
  exact Iff.rfl

/-- Every index of the result array is in some point's block: row r is in block r / 2000. -/
theorem covered (i : S20000x256.Idx) :
    ∃ t : Fin cfg0.N, (cfg0.win 6).flush t = true ∧ i ∈ ((cfg0.win 6).blk t).view.set := by
  have hi0 : (i 0).val < 20000 := (i 0).isLt
  have hi1 : (i 1).val < 256 := (i 1).isLt
  have hN : cfg0.N = 10 := N_0
  obtain ⟨t, ht⟩ : ∃ t : Fin cfg0.N, t.val = (i 0).val / 2000 := ⟨⟨(i 0).val / 2000, by rw [hN]; omega⟩, rfl⟩
  obtain ⟨-, -, -, -, -, -, -, -, -, -, -, -, e60, e61⟩ := block_indices t
  refine ⟨t, flush0_6 t, ?_⟩
  rw [mem_block]
  intro a
  match a with
  | ⟨0, _⟩ =>
    show win0_6.index t (0 : Fin 2) * 2000 ≤ (i 0).val ∧ (i 0).val < win0_6.index t (0 : Fin 2) * 2000 + 2000
    rw [e60, ht]; omega
  | ⟨1, _⟩ =>
    show win0_6.index t (1 : Fin 2) * 256 ≤ (i 1).val ∧ (i 1).val < win0_6.index t (1 : Fin 2) * 256 + 256
    rw [e61]; omega

/-- After the run the result array is `result`. -/
theorem final (c : Dev nD) : (dats m 0 c).arrAt 6 cfg0.N = result m c :=
  (dats m 0 c).arrAt_eq_of_cover 6 (result m c) (fun t _ => flushed_eq m c t) covered

/-- The kernel's run, read: the result array at `result`, the arguments unchanged. -/
theorem run : θ_run defs (onTc (τ := τ) (main (F := Ideal))) ⟨m, fun _ => 0, ρ⟩ fun r => ∀ c : Dev nD,
      r.2.mem ((c : Thread nD τ).loc main_v60) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.Whole

end
-- ==== Proof.ConcatThree.lean ====
/-
  Three arrays of 20000 rows by 256 columns laid side by side along the columns give an array of 20000 rows by 768
  columns. Read at row `r`, column `off + k` with `off` = 0, 256 or 512 and `k < 256`, it is the first, second or third
  array at (r, k): the pieces before the chosen one take up `off` columns, and the other coordinate is untouched.
-/
import proofs.«114773_j30073361007326_2_alg».proof.Proof.Spec
import Idealize.ShloMosaic.Lib.Pipeline.Value

noncomputable section

namespace Cert.SupportSum

open Idealize.ShloMosaic Idealize.ShloMosaic.ValueIdx

variable {α : Type}

/-- Off the joined axis (the columns, axis 1) the only other axis is the rows, where the two indices agree. -/
private theorem rows_agree (r : Fin 20000) (k : Fin 256) (c : Fin 768) :
    ∀ b : Fin Rows.rank, b.cast (rfl : Rows.rank = Wide.rank) ≠ (1 : Fin Wide.rank) →
      ((ix2 r k : Rows.Idx) b).val = ((ix2 r c : Wide.Idx) (b.cast (rfl : Rows.rank = Wide.rank))).val := by
  intro b hb
  match b with
  | ⟨0, _⟩ => rfl
  | ⟨1, _⟩ => exact absurd rfl hb

/-- Columns 0 … 255 of the joined array are the first piece. -/
theorem concat3_first (u0 u1 u2 : Rows.Idx → α)
    (h : Shape.Concatenates [Rows, Rows, Rows] Wide 1) (r : Fin 20000) (k : Fin 256) :
    concatenate Wide 1 [⟨Rows, u0⟩, ⟨Rows, u1⟩, ⟨Rows, u2⟩] h (ix2 r (band0 k)) = u0 (ix2 r k) :=
  concatenate_apply_piece (1 : Fin Wide.rank) [⟨Rows, u0⟩, ⟨Rows, u1⟩, ⟨Rows, u2⟩] h (ix2 r (band0 k))
    0 (by show 0 < 3; omega) Rows u0 rfl rfl 0 rfl (ix2 r k) (rows_agree r k _) (Nat.zero_add k.val)

/-- Columns 256 … 511 of the joined array are the second piece. -/
theorem concat3_second (u0 u1 u2 : Rows.Idx → α)
    (h : Shape.Concatenates [Rows, Rows, Rows] Wide 1) (r : Fin 20000) (k : Fin 256) :
    concatenate Wide 1 [⟨Rows, u0⟩, ⟨Rows, u1⟩, ⟨Rows, u2⟩] h (ix2 r (band1 k)) = u1 (ix2 r k) :=
  concatenate_apply_piece (1 : Fin Wide.rank) [⟨Rows, u0⟩, ⟨Rows, u1⟩, ⟨Rows, u2⟩] h (ix2 r (band1 k))
    1 (by show 1 < 3; omega) Rows u1 rfl rfl 256 rfl (ix2 r k) (rows_agree r k _) (by show 256 + k.val = 256 + k.val; rfl)

/-- Columns 512 … 767 of the joined array are the third piece. -/
theorem concat3_third (u0 u1 u2 : Rows.Idx → α)
    (h : Shape.Concatenates [Rows, Rows, Rows] Wide 1) (r : Fin 20000) (k : Fin 256) :
    concatenate Wide 1 [⟨Rows, u0⟩, ⟨Rows, u1⟩, ⟨Rows, u2⟩] h (ix2 r (band2 k)) = u2 (ix2 r k) :=
  concatenate_apply_piece (1 : Fin Wide.rank) [⟨Rows, u0⟩, ⟨Rows, u1⟩, ⟨Rows, u2⟩] h (ix2 r (band2 k))
    2 (by show 2 < 3; omega) Rows u2 rfl rfl 512 rfl (ix2 r k) (rows_agree r k _) (by show 512 + k.val = 512 + k.val; rfl)

end Cert.SupportSum

end
-- ==== Proof.LibSumSplit.lean ====
/-
  A sum over `Fin n` with `n = a + b` is the sum of its first `a` terms plus the sum of its last `b` terms,
  with the two halves indexed by `Fin a` and `Fin b` through explicit bounds (no cast of the index type is left
  in the statement). It holds in any additive commutative monoid: only associativity and commutativity of
  addition are used, so it applies to the extended reals as it stands, infinities included.
-/
import Mathlib.Algebra.BigOperators.Fin

namespace Cert.LibSumSplit

/-- `∑ k < a + b, g k = ∑ k < a, g k + ∑ k < b, g (a + k)`, the index type of the whole sum being `Fin n` for
    any `n` equal to `a + b`. -/
theorem sum_split {M : Type*} [AddCommMonoid M] (a b n : ℕ) (h : a + b = n) (g : Fin n → M) :
    ∑ k : Fin n, g k
      = ∑ k : Fin a, g ⟨k.val, by have := k.isLt; omega⟩ + ∑ k : Fin b, g ⟨a + k.val, by have := k.isLt; omega⟩ := by
  subst h
  exact Fin.sum_univ_add g

end Cert.LibSumSplit
-- ==== Proof.SumThreeRuns.lean ====
/-
  A sum of 768 terms is the sum of its three consecutive runs of 256 terms, grouped as (first + second) + third.
  Only associativity and commutativity of addition are used (an additive commutative monoid), so the statement
  holds on the extended reals with both infinities present.
-/
import proofs.«114773_j30073361007326_2_alg».proof.Proof.LibSumSplit

namespace Cert.SupportSum

open scoped BigOperators

/-- `∑ k < 768, g k = (∑ k < 256, g k + ∑ k < 256, g (256 + k)) + ∑ k < 256, g (512 + k)`: first the last 256 terms are
    split off (768 = 512 + 256), then the first 512 are halved (512 = 256 + 256). -/
theorem sum_768_eq_three_runs {M : Type*} [AddCommMonoid M] (g : Fin 768 → M) :
    ∑ k : Fin 768, g k
      = (∑ k : Fin 256, g ⟨k.val, by have := k.isLt; omega⟩
          + ∑ k : Fin 256, g ⟨256 + k.val, by have := k.isLt; omega⟩)
        + ∑ k : Fin 256, g ⟨512 + k.val, by have := k.isLt; omega⟩ := by
  rw [Cert.LibSumSplit.sum_split 512 256 768 rfl g,
    Cert.LibSumSplit.sum_split 256 256 512 rfl (fun k : Fin 512 => g ⟨k.val, by have := k.isLt; omega⟩)]

end Cert.SupportSum
-- ==== Proof.RefIsSpec.lean ====
/-
  The reference's result is the specification's array of its three supports and the weights.

  The reference multiplies the 20000 × 768 array made of the three supports side by side into the whole 768 × 256
  weight array: entry (r, q) is ∑ c < 768, joined[r, c] · w[c, q]. The 768 columns are three runs of 256; on run
  number b (columns 256·b … 256·b + 255) the joined array is support b, and the weight rows met are band b. So the one
  sum is the three band sums, which is how the specification is written.
-/
import proofs.«114773_j30073361007326_2_alg».proof.Proof.Gen.ReferenceIdeal.Read
import proofs.«114773_j30073361007326_2_alg».proof.Proof.Spec
import proofs.«114773_j30073361007326_2_alg».proof.Proof.ConcatThree
import proofs.«114773_j30073361007326_2_alg».proof.Proof.SumThreeRuns

noncomputable section

namespace Cert.ReferenceIdeal.RefValue

open Cert.ReferenceIdeal Cert.ReferenceIdeal.Gen Cert.ReferenceIdeal.Read
open Idealize.ShloMosaic Idealize.ShloMosaic.ValueIdx Cert.SupportSum
open scoped BigOperators

/-- The left factor's index at output entry (r, q) and contraction position `c`: row r, column c of the joined array. -/
theorem joined_index (r : Fin 20000) (q : Fin 256) (c : Fin 768) : lidx_main_v58 (ix2 r q) c = ix2 r c :=
  funext fun a => Fin.ext (by match a with | ⟨0, _⟩ => rfl | ⟨1, _⟩ => rfl)

/-- The right factor's index there: row c, column q of the weights. -/
theorem weight_index (r : Fin 20000) (q : Fin 256) (c : Fin 768) : ridx_main_v58 (ix2 r q) c = ix2 c q :=
  funext fun a => Fin.ext (by match a with | ⟨0, _⟩ => rfl | ⟨1, _⟩ => rfl)

/-- The reference's product of the joined supports with the weights is the three band products added. -/
theorem product_eq_fused (x0 : (⟨S20000x256, .f32⟩ : BufTy).Contents (Elt Ideal)) (x1 x2 : (⟨S3x320000, .i32⟩ : BufTy).Contents (Elt Ideal))
    (x3 : (⟨S3x320000, .f32⟩ : BufTy).Contents (Elt Ideal)) (x4 : (⟨S768x256, .f32⟩ : BufTy).Contents (Elt Ideal)) :
    val_main_v58 (F := Ideal) x0 x1 x2 x3 x4
      = fused (val_main_v18 (F := Ideal) x0 x1 x2 x3) (val_main_v37 (F := Ideal) x0 x1 x2 x3) (val_main_v56 (F := Ideal) x0 x1 x2 x3) x4 := by
  funext i
  obtain ⟨r, q, rfl⟩ : ∃ (r : Fin 20000) (q : Fin 256), i = ix2 r q := ⟨i 0, i 1, eq_ix2 i⟩
  rw [val_main_v58_apply, fused_apply]
  unfold val_main_v57 fusedAt
  generalize val_main_v18 (F := Ideal) x0 x1 x2 x3 = u0
  generalize val_main_v37 (F := Ideal) x0 x1 x2 x3 = u1
  generalize val_main_v56 (F := Ideal) x0 x1 x2 x3 = u2
  rw [sum_768_eq_three_runs]
  simp only [joined_index, weight_index]
  congr 1
  · congr 1
    · exact Finset.sum_congr rfl fun k _ => congrArg (· * _) (concat3_first u0 u1 u2 _ r k)
    · exact Finset.sum_congr rfl fun k _ => congrArg (· * _) (concat3_second u0 u1 u2 _ r k)
  · exact Finset.sum_congr rfl fun k _ => congrArg (· * _) (concat3_third u0 u1 u2 _ r k)

end Cert.ReferenceIdeal.RefValue

end
-- ==== Proof.lean ====
/-
  The certificate's claim, assembled.

  Both programs first compute, on the host and by the same chain of operations, three supports s0 s1 s2 of 20000 rows
  by 256 columns from the node features, the edge lists and the edge weights. They differ only in the last step.
  The reference lays the supports side by side (20000 × 768) and multiplies by the whole 768 × 256 weight array W:
      out[r, q] = ∑ c < 768, [s0 s1 s2][r, c] · W[c, q].
  The kernel cuts W into its three bands of 256 rows and, block of 2000 rows by block, adds three products:
      out[r, q] = (∑ k < 256, s0[r, k] · W[k, q] + ∑ k < 256, s1[r, k] · W[256 + k, q]) + ∑ k < 256, s2[r, k] · W[512 + k, q].
  On the extended reals the narrowing of the operands to bf16 is the identity, and the two right-hand sides are one
  finite sum grouped in two ways: the 768 columns are three runs of 256, run b of the joined array is support b and
  meets band b of W. Regrouping a finite sum uses only associativity and commutativity of addition, which hold with
  both infinities present, so the precondition (finite inputs) is not needed for the values. The kernel's ten blocks
  tile the 20000 rows, so its result array is the same array as the reference's.

  The three frames are the generated ones (the reference's is its generated run with the result dropped); the
  idealization rewrote nothing, so `preserves` is `True`.
-/
import proofs.«114773_j30073361007326_2_alg».proof.Defs
import proofs.«114773_j30073361007326_2_alg».proof.Proof.Gen.Kernel
import proofs.«114773_j30073361007326_2_alg».proof.Proof.Gen.Kernel.Skeleton
import proofs.«114773_j30073361007326_2_alg».proof.Proof.Gen.Kernel.Launch
import proofs.«114773_j30073361007326_2_alg».proof.Proof.Gen.Kernel.Points
import proofs.«114773_j30073361007326_2_alg».proof.Proof.Gen.Kernel.Frame
import proofs.«114773_j30073361007326_2_alg».proof.Proof.Gen.KernelIdeal
import proofs.«114773_j30073361007326_2_alg».proof.Proof.Gen.KernelIdeal.Skeleton
import proofs.«114773_j30073361007326_2_alg».proof.Proof.Gen.KernelIdeal.Launch
import proofs.«114773_j30073361007326_2_alg».proof.Proof.Gen.KernelIdeal.Points
import proofs.«114773_j30073361007326_2_alg».proof.Proof.Gen.KernelIdeal.Frame
import proofs.«114773_j30073361007326_2_alg».proof.Proof.Gen.KernelIdeal.Value
import proofs.«114773_j30073361007326_2_alg».proof.Proof.Gen.ReferenceIdeal
import proofs.«114773_j30073361007326_2_alg».proof.Proof.Gen.ReferenceIdeal.Run
import proofs.«114773_j30073361007326_2_alg».proof.Proof.Gen.ReferenceIdeal.Read
import proofs.«114773_j30073361007326_2_alg».proof.Proof.Gen.Pre_finite_inputs
import proofs.«114773_j30073361007326_2_alg».proof.Proof.KernelArray
import proofs.«114773_j30073361007326_2_alg».proof.Proof.RefIsSpec
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs and leaves its arguments unchanged: its run, with the statement about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten when the kernel was read on the extended reals. -/
theorem preserves : Cert.preserves_Kernel_KernelIdeal := trivial

/-- From arguments that agree, the kernel's result array and the reference's are the same array: both are the three
    band products of the supports with the weights, added (the kernel's by its blocks, the reference's by splitting
    its one sum over 768 into the three runs of 256). -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4⟩ := hagree c
  rw [Cert.ReferenceIdeal.Read.val_main_v58_eq, Cert.ReferenceIdeal.RefValue.product_eq_fused, h0, h1, h2, h3, h4]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
